-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x8192 .f32) (main_arg1 : FVec F S8192x128 .f32) (main_arg2 : FVec F S8192x8192 .f32) (main_arg3 : FVec F S64x128 .f32) (main_arg4 : FVec F S64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S8192x8192 : Shape := ⟨2, ![8192, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S8192x64 : Shape := ⟨2, ![8192, 64]⟩
abbrev S512x8192 : Shape := ⟨2, ![512, 8192]⟩
abbrev S512x64 : Shape := ⟨2, ![512, 64]⟩
abbrev S512x128 : Shape := ⟨2, ![512, 128]⟩
abbrev S512x512 : Shape := ⟨2, ![512, 512]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S8192x64, .f32⟩
  | .hbm, ⟨7, _⟩ => ⟨S8192x8192, .f32⟩
  | .local _ .vmem, ⟨0, _⟩ => ⟨S512x8192, .f32⟩
  | .local _ .vmem, ⟨1, _⟩ => ⟨S512x8192, .f32⟩
  | .local _ .vmem, ⟨2, _⟩ => ⟨S8192x128, .f32⟩
  | .local _ .vmem, ⟨3, _⟩ => ⟨S64x128, .f32⟩
  | .local _ .vmem, ⟨4, _⟩ => ⟨S1x64, .f32⟩
  | .local _ .vmem, ⟨5, _⟩ => ⟨S512x64, .f32⟩
  | .local _ .vmem, ⟨6, _⟩ => ⟨S512x64, .f32⟩
  | .local _ .vmem, ⟨7, _⟩ => ⟨S512x128, .f32⟩
  | .local _ .vmem, ⟨8, _⟩ => ⟨S8192x64, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32_12 : BitVec 32 := 0#32
  let c0_i32 : BitVec 32 := 0#32
  let c1_i32 : BitVec 32 := 1#32
  let arg7 : BitVec 32 := Scf.iv c0_i32 c1_i32 k0_t1
  let c1_i32_11 : BitVec 32 := 1#32
  let v13 : BitVec 32 := Scalar.muli arg7 c1_i32_11
  let v14 : BitVec 32 := Scalar.addi c0_i32_12 v13
  let c512_i32 : BitVec 32 := 512#32
  let v15 : BitVec 32 := Scalar.muli v14 c512_i32
  v15
def k0_off1 (k0_t1 : Fin k0_t1_loop.trips) : Fin 2 → Nat :=
  let c0_13 : Index := 0#32
  let c0_i32_12 : BitVec 32 := 0#32
  let c0_i32 : BitVec 32 := 0#32
  let c1_i32 : BitVec 32 := 1#32
  let arg7 : BitVec 32 := Scf.iv c0_i32 c1_i32 k0_t1
  let c1_i32_11 : BitVec 32 := 1#32
  let v13 : BitVec 32 := Scalar.muli arg7 c1_i32_11
  let v14 : BitVec 32 := Scalar.addi c0_i32_12 v13
  let c512_i32 : BitVec 32 := 512#32
  let v15 : BitVec 32 := Scalar.muli v14 c512_i32
  let v16 : BitVec 32 := v15
  let v17 : Index := Scalar.indexCast v16
  ![0, v17.toNat]
def k0_off2 (k0_t1 : Fin k0_t1_loop.trips) : Fin 2 → Nat :=
  let c0_i32_12 : BitVec 32 := 0#32
  let c0_i32 : BitVec 32 := 0#32
  let c1_i32 : BitVec 32 := 1#32
  let arg7 : BitVec 32 := Scf.iv c0_i32 c1_i32 k0_t1
  let c1_i32_11 : BitVec 32 := 1#32
  let v13 : BitVec 32 := Scalar.muli arg7 c1_i32_11
  let v14 : BitVec 32 := Scalar.addi c0_i32_12 v13
  let c512_i32 : BitVec 32 := 512#32
  let v15 : BitVec 32 := Scalar.muli v14 c512_i32
  let v16 : BitVec 32 := v15
  let v20 : Index := Scalar.indexCast v16
  let c0_14 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_mult1 (i : grid1.Coords) : BitVec 32 :=
  let arg0 : BitVec 32 := BitVec.ofNat 32 (i 0).val
  let c1024_i32 : BitVec 32 := 1024#32
  let v0 : BitVec 32 := Scalar.muli arg0 c1024_i32
  v0
def k1_mult2 (i : grid1.Coords) : BitVec 32 :=
  let arg1 : BitVec 32 := BitVec.ofNat 32 (i 1).val
  let c1024_i32_0 : BitVec 32 := 1024#32
  let v2 : BitVec 32 := Scalar.muli arg1 c1024_i32_0
  v2
def k1_off1 (i : grid1.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k1_off2 (i : grid1.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v7 : Index := Scalar.indexCast v3
  let c0_1 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8192x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64_S1x64 : S64.ShapeCasts S1x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S512x512 : 0 < S512x512.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S512x512_S512x128_S512x128_1_0_0_1_n_n_wf : DotDims.WF S512x512 S512x128 S512x128 [1] [0] [0] [1] [] []
  dot_S512x128_S64x128_S512x64_1_1_0_0_n_n_wf : DotDims.WF S512x128 S64x128 S512x64 [1] [1] [0] [0] [] []
  dot_S1024x64_S1024x64_S1024x1024_1_1_0_0_n_n_wf : DotDims.WF S1024x64 S1024x64 S1024x1024 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S512x8192.size a
  k0_off2_inb : ∀ k0_t1 : Fin k0_t1_loop.trips, ∀ a, (k0_off2 k0_t1) a + S512x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S8192x64.size a
  hwx0_4 : ∀ i : grid0.Coords, EltTy.bits .f32 = 32 ∨ (Rect.block (s := S8192x64) S512x64.size (cc0_transform_4 i) (hinb0_4 i)).WholeWords (EltTy.packing .f32)
  hrank1 : 0 < grid1.rank
  k1_mult1_dvd : ∀ i : grid1.Coords, 8 ∣ (k1_mult1 i).toNat
  k1_mult2_dvd : ∀ i : grid1.Coords, 8 ∣ (k1_mult2 i).toNat
  k1_off1_inb : ∀ i : grid1.Coords, ∀ a, (k1_off1 i) a + S1024x64.size a ≤ S8192x64.size a
  k1_off2_inb : ∀ i : grid1.Coords, ∀ a, (k1_off2 i) a + S1024x64.size a ≤ S8192x64.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S8192x64.size a
  hwx1_0 : ∀ i : grid1.Coords, EltTy.bits .f32 = 32 ∨ (Rect.block (s := S8192x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S8192x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S64x128, .f32⟩
  | .hbm, ⟨4, _⟩ => ⟨S64, .f32⟩
  | .hbm, ⟨5, _⟩ => ⟨S8192x128, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S64x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .i1⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelRun.lean ====
/-
  The idealized kernel's whole run with its two result arrays named. The program is a host reshape followed by two
  pallas regions; the contents of every buffer at each boundary are a fold from the launch memory (after the reshape;
  after region 0, whose output array is what its sixteen points wrote back; after region 1, likewise over its sixty-four
  points). Every weakly fair execution ends with each unscoped buffer at the last boundary's contents: the force array
  is region 1's written-back output, the feature array — an input of region 1, left as entered — is region 0's
  written-back output, and the arguments are as launched.
-/
import proofs.«163462_j12197707120647_2_alg».proof.Proof.Gen.KernelIdeal.Frame

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last boundary the force array is what region 1's points wrote back into its output window's array. -/
theorem last_force (c : Dev nD) :
    W3 m ρ c (Proc.devRef .tc main_v2) = (dat1 (V2 m ρ) c).arrAt 2 cfg1.N := W3_arr m ρ c 2

/-- At the last boundary the feature array — region 1 only reads it — is what region 0's points wrote back. -/
theorem last_feat (c : Dev nD) :
    W3 m ρ c (Proc.devRef .tc main_v1) = (dat0 (V1 m ρ) c).arrAt 4 cfg0.N :=
  ((W3_arr m ρ c 0).trans (((dat1 (V2 m ρ) c).arrAt_in 0 rfl _).trans (A_eq1 (V2 m ρ) c 0))).trans (W2_arr m ρ c 4)

-- the launch theorem's implicit arguments are found by unifying its conclusion with this one, which takes unfolding
-- plain definitions in a metavariable's type
set_option backward.isDefEq.respectTransparency.types false in
/-- Every weakly fair execution of the program terminates, nothing faulting, with the two result arrays at the last
    boundary's contents and the arguments as launched. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_v1) = W3 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       h c _ (mem_uc main_v1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Values

end
-- ==== Proof.Boundaries.lean ====
/-
  What each region finds in the buffers it reads. The only host operation, a reshape of the 64-vector into a 1×64
  row, runs before region 0 and writes none of the arguments: region 0 finds the four arguments as launched and the
  row holding the vector. Region 1 finds in the feature buffer what region 0's points wrote back, and the weights as
  launched (region 0 does not touch them).
-/
import proofs.«163462_j12197707120647_2_alg».proof.Proof.Gen.KernelIdeal.Frame
import Idealize.ShloMosaic.Lib.ValueLayout
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ) (ρ : Dev nD → PrngReg)

/-- The reshape leaves the first argument as launched; -/
theorem entry0_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- the second; -/
theorem entry0_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- the weights; -/
theorem entry0_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- the layer's matrix. -/
theorem entry0_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- The row region 0 finds is the 64-vector reshaped. -/
theorem entry0_row (c : Dev nD) :
    (W1 m ρ c (Proc.devRef .tc main_v0) : S1x64.Idx → Elt F .f32)
      = shapeCast S1x64 (m ((c : Thread nD τ).loc main_arg4)) shapeCasts_S64_S1x64 := by
  show StableHlo.after hostOps0 (W0 m ρ c) (Proc.devRef .tc main_v0) = _
  after_results
  rfl

/-- Read at its entry `o`: the vector's entry `o`. -/
theorem entry0_row_at (c : Dev nD) (o : Fin 64) :
    (W1 m ρ c (Proc.devRef .tc main_v0) : S1x64.Idx → Elt F .f32) (ix2 (0 : Fin 1) o) = m ((c : Thread nD τ).loc main_arg4) (ix1 o) := by
  rw [entry0_row]
  exact shapeCast_a_1a_apply _ _ 0 o

/-- Region 1 finds in the feature buffer what region 0's points wrote back, -/
theorem entry1_feat (c : Dev nD) : W2 m ρ c (Proc.devRef .tc main_v1) = (dat0 (V1 m ρ) c).arrAt 4 cfg0.N := W2_arr m ρ c 4

/-- and the weights as launched. -/
theorem entry1_weights (c : Dev nD) : W2 m ρ c (Proc.devRef .tc main_arg2) = m ((c : Thread nD τ).loc main_arg2) :=
  (W2_of_ne m ρ c main_arg2 (by decide)).trans (entry0_arg2 m ρ c)

end Cert.KernelIdeal.Boundary

end
-- ==== Proof.Reg0Loop.lean ====
/-
  Region 0's body, read as values. The body zeroes a 512×128 scratch, then makes sixteen trips; trip `k` loads
  columns `512k … 512k+511` of the point's 512×8192 row block and rows `512k … 512k+511` of the 8192×128 array,
  and stores back into the scratch what it found there plus the product of the two loads. So the scratch after `n`
  trips obeys a recurrence from the zero fill, and the one store into the output block is the last payload of the
  scratch after all sixteen trips, the 64×128 array and the 1×64 row.
-/
import proofs.«163462_j12197707120647_2_alg».proof.Proof.Gen.KernelIdeal.Frame
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.Sem

variable {F : FTy → Type} [FloatOps F]

/-- The whole-scratch rectangle, and the rectangles of trip `k`'s two loads. -/
abbrev rS : Rect S512x128 := Rect.unit (s := S512x128) ![0, 0] S512x128.size inb_S512x128_S512x128_0_0
abbrev rA (k : Fin k0_t1_loop.trips) : Rect S512x8192 := Rect.unit (s := S512x8192) (k0_off1 k) S512x512.size (k0_off1_inb k)
abbrev rX (k : Fin k0_t1_loop.trips) : Rect S8192x128 := Rect.unit (s := S8192x128) (k0_off2 k) S512x128.size (k0_off2_inb k)

/-- Trip `k` writes ONE piece: over the whole scratch, the trip's payload of its two loads and of what it finds in
    the scratch. -/
theorem trip_piece (𝒱 : Variants) (c : Dev nD) (bd : Option 𝒱.V) (i : grid0.Coords) (arg1 : Memref sig .tc .vmem S512x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole)
    (X1 : BufTy.Contents (Elt F) arg1.view.ty) (X2 : BufTy.Contents (Elt F) arg2.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 X1 X2 k f
      = [⟨rS, k0_pay2 (View.readAt (Elt F) arg1.view (rA k).toLoadRect X1) (View.readAt (Elt F) arg2.view (rX k).toLoadRect X2)
            (View.readAt (Elt F) arg6.view rS.toLoadRect f)⟩] := by
  unfold tripL_k0_t1 trip_k0_t1
  rfl

/-- The zero offsets of a whole-buffer rectangle, as the library's lemmas about such rectangles take them. -/
theorem zero2 : (![0, 0] : Fin 2 → Nat) = fun _ => 0 := funext fun a => by fin_cases a <;> rfl

/-- The scratch after `n` trips, from row block `A` and array `X`: the zero fill, then each trip's payload of its two
    loads and of the scratch it finds. -/
def scratchAfter (A : Vec F S512x8192 .f32) (X : Vec F S8192x128 .f32) : ℕ → Vec F S512x128 .f32
  | 0 => k0_pay1
  | n + 1 => if h : n < k0_t1_loop.trips then
      k0_pay2 (View.ld A (rA ⟨n, h⟩)) (View.ld X (rX ⟨n, h⟩)) (scratchAfter A X n)
    else scratchAfter A X n

theorem scratchAfter_succ (A : Vec F S512x8192 .f32) (X : Vec F S8192x128 .f32) (k : Fin k0_t1_loop.trips) :
    scratchAfter A X (k.val + 1) = k0_pay2 (View.ld A (rA k)) (View.ld X (rX k)) (scratchAfter A X k.val) := by
  rw [scratchAfter, dif_pos k.isLt]

/-- One store over the whole scratch leaves its payload, whatever was there. -/
theorem read_whole_store {sig' : RefSig} {κ : Kind} {sp : Space} (v : View sig' κ sp S512x128 .f32) (f : v.ty.Contents (Elt F))
    (w : S512x128.Idx → Elt F .f32) : v.read (Elt F) (v.writes (Elt F) f [⟨rS, w⟩]) = w := by
  have hc : ∀ y : S512x128.Idx, ∃ p ∈ ([⟨rS, w⟩] : List (View.Piece (Elt F) S512x128 .f32)), y ∈ p.1.set := fun y =>
    ⟨⟨rS, w⟩, List.mem_singleton_self _, View.mem_set_unit_zero zero2 inb_S512x128_S512x128_0_0 y⟩
  rw [View.read_writes_eq_canon v f _ hc]
  exact View.canon_unit_zero zero2 inb_S512x128_S512x128_0_0 w

/-- THE SCRATCH AFTER `n` TRIPS, read back: the pieces of the first `n` trips written over the zero fill read as the
    recurrence — each trip's one piece covers the scratch, and what the trip finds there is the previous value. -/
theorem scratch_read (𝒱 : Variants) (c : Dev nD) (bd : Option 𝒱.V) (i : grid0.Coords) (arg1 : Memref sig .tc .vmem S512x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole)
    (x0 : Vec F S512x8192 .f32) (x1 : Vec F S8192x128 .f32) (g : BufTy.Contents (Elt F) arg6.view.ty) (n : ℕ) :
    arg6.view.read (Elt F) (arg6.view.writes (Elt F) (arg6.view.writes (Elt F) g [⟨rS, k0_pay1⟩])
        (pb_k0_t1 (F := F) 𝒱 c bd i arg1 harg1 arg2 harg2 arg3 harg3 arg4 harg4 arg5 harg5 arg6 harg6 (harg1.unread x0) (harg2.unread x1)
          (arg6.view.writes (Elt F) g [⟨rS, k0_pay1⟩]) n))
      = scratchAfter x0 x1 n := by
  induction n with
  | zero =>
    rw [pb_k0_t1, View.writes_nil]
    exact read_whole_store _ _ _
  | succ n ih =>
    by_cases h : n < k0_t1_loop.trips
    · have hs := pb_k0_t1_succ (F := F) 𝒱 c bd i arg1 harg1 arg2 harg2 arg3 harg3 arg4 harg4 arg5 harg5 arg6 harg6 (harg1.unread x0) (harg2.unread x1)
        (arg6.view.writes (Elt F) g [⟨rS, k0_pay1⟩]) ⟨n, h⟩
      rw [show (⟨n, h⟩ : Fin k0_t1_loop.trips).val + 1 = n + 1 from rfl] at hs
      rw [hs, trip_piece, View.writes_append, read_whole_store, scratchAfter_succ x0 x1 ⟨n, h⟩]
      simp only [View.readAt_eq_ld, harg1.read_unread, harg2.read_unread]
      rw [ih, View.ld_unit_zero (S := S512x128) zero2]
    · rw [pb_k0_t1, pb_k0_t1Step, dif_neg h, scratchAfter, dif_neg h]
      exact ih

/-- THE ONE STORE INTO THE OUTPUT BLOCK: what the body leaves in the output's staging buffer is the last payload
    of the scratch after all the trips, of the 64×128 array and of the 1×64 row — the zero fill and the trips'
    pieces the run found read back as the recurrence. -/
theorem out_piece (c : Dev nD) (i : grid0.Coords) (arg1 : Memref sig .tc .vmem S512x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole)
    (x0 : Vec F S512x8192 .f32) (x1 : Vec F S8192x128 .f32) (x2 : Vec F S64x128 .f32) (x3 : Vec F S1x64 .f32) :
    out0_A_4 (F := F) c i arg1 harg1 arg2 harg2 arg3 harg3 arg4 harg4 arg5 harg5 arg6 harg6 x0 x1 x2 x3
      = k0_pay3 (scratchAfter x0 x1 k0_t1_loop.trips) x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_run_names
  rw [View.canon_unit_zero zero2]
  simp only [View.readAt_eq_ld, harg3.read_unread, harg4.read_unread, View.writes_append]
  rw [scratch_read, View.ld_unit_zero (S := S512x128) zero2, View.ld_unit_zero (S := S64x128) zero2,
    View.ld_unit_zero (S := S1x64) zero2]

end Cert.KernelIdeal.Reg0

end
-- ==== Proof.Reg0Pay.lean ====
/-
  Region 0's three stored values read at a pair of coordinates, and the two block loads of its loop.

  The region keeps a 512×128 accumulator.  It first fills it with the word of 0.0, which is the zero of the extended
  reals.  Trip k of the loop adds to it the product of a 512×512 block of the adjacency rows (columns 512k … 512k+511)
  with the matching 512×128 block of the node inputs (rows 512k … 512k+511): at the ideal values the narrowing of the
  two blocks to the short format changes nothing, and a matrix product into a zero accumulator is the plain sum over
  the 512 contracted positions.  After the loop the accumulator is sent through the linear layer: a product that
  contracts the SECOND axis of both operands (the weight is stored as outputs × inputs, so entry (p, o) sums
  s (p, j) · w (o, j) over j), plus the 1×64 bias row repeated down the 512 rows.
  A block load reads the array at offset + coordinate on each axis.
-/
import proofs.«163462_j12197707120647_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

namespace Cert.KernelIdeal.Reg0Pay

open Cert.KernelIdeal Cert.KernelIdeal.Gen Idealize.ShloMosaic Idealize.ShloMosaic.ValueIdx
open scoped BigOperators

/-! ## The zero fill -/

/-- The fill is the word of `0.0` at every position: the extended real `0`. -/
theorem pay1_at (p : Fin 512) (j : Fin 128) : k0_pay1 (F := Ideal) (ix2 p j) = 0 := by
  unfold k0_pay1
  rw [shapeCast_self]
  exact Ideal.ofBits_zero_f32

/-! ## The block product of one trip -/

/-- The operand indices of the 512×512 by 512×128 product at output `i` and contraction index `q`: the left operand
    is read at `(i 0, q)`, the right one at `(q, i 1)`. -/
theorem mmA_lhs0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem mmA_lhs1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem mmA_rhs0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem mmA_rhs1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The product into the zero accumulator at `(p, j)`: the sum over the 512 contracted positions `q` of
    `a (p, q) · x (q, j)`. -/
theorem mmA_at (a : FVec Ideal S512x512 .bf16) (x : FVec Ideal S512x128 .bf16) (p : Fin 512) (j : Fin 128) :
    matmul (F := Ideal) dot_S512x512_S512x128_S512x128_1_0_0_1_n_n none a x (constant (F := Ideal) S512x128 .f32 0x00000000#32) (ix2 p j)
      = ∑ q : Fin 512, a (ix2 p q) * x (ix2 q j) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p j) ((contrEquiv1 dot_S512x512_S512x128_S512x128_1_0_0_1_n_n 512 rfl rfl).symm k) = ix2 p k := funext fun b => Fin.ext (by
    match b with
    | ⟨0, _⟩ => exact mmA_lhs0 _ _
    | ⟨1, _⟩ => exact (mmA_lhs1 _ _).trans hk)
  have er : dot_S512x512_S512x128_S512x128_1_0_0_1_n_n.rhsIdx (ix2 p j) ((contrEquiv1 dot_S512x512_S512x128_S512x128_1_0_0_1_n_n 512 rfl rfl).symm k) = ix2 k j := funext fun b => Fin.ext (by
    match b with
    | ⟨0, _⟩ => exact (mmA_rhs0 _ _).trans hk
    | ⟨1, _⟩ => exact mmA_rhs1 _ _)
  rw [el, er]

/-- What a trip stores: the accumulator found plus the product of the two blocks loaded. -/
theorem pay2_at (a : Vec Ideal S512x512 .f32) (x : Vec Ideal S512x128 .f32) (f : Vec Ideal S512x128 .f32) (p : Fin 512) (j : Fin 128) :
    k0_pay2 (F := Ideal) a x f (ix2 p j) = f (ix2 p j) + ∑ q : Fin 512, a (ix2 p q) * x (ix2 q j) := by
  unfold k0_pay2
  rw [shapeCast_self]
  refine (addf_apply _ _ _).trans ?_
  refine congrArg (f (ix2 p j) + ·) ?_
  refine (mmA_at _ _ p j).trans ?_
  exact Finset.sum_congr rfl fun q _ => rfl

/-! ## The linear layer -/

/-- The operand indices of the 512×128 by 64×128 product, which contracts axis 1 of both operands, at output `i` and
    contraction index `q`: the left operand is read at `(i 0, q)`, the right one at `(i 1, q)`. -/
theorem mmB_lhs0 (i : S512x64.Idx) (q : dot_S512x128_S64x128_S512x64_1_1_0_0_n_n.contr.Idx) :
    (dot_S512x128_S64x128_S512x64_1_1_0_0_n_n.lhsIdx i q 0).val = (i 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem mmB_lhs1 (i : S512x64.Idx) (q : dot_S512x128_S64x128_S512x64_1_1_0_0_n_n.contr.Idx) :
    (dot_S512x128_S64x128_S512x64_1_1_0_0_n_n.lhsIdx i q 1).val = (q ⟨0, by decide⟩).val :=
  dot_S512x128_S64x128_S512x64_1_1_0_0_n_n.lhsIdx_val_of_single rfl i q
theorem mmB_rhs0 (i : S512x64.Idx) (q : dot_S512x128_S64x128_S512x64_1_1_0_0_n_n.contr.Idx) :
    (dot_S512x128_S64x128_S512x64_1_1_0_0_n_n.rhsIdx i q 0).val = (i 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl
theorem mmB_rhs1 (i : S512x64.Idx) (q : dot_S512x128_S64x128_S512x64_1_1_0_0_n_n.contr.Idx) :
    (dot_S512x128_S64x128_S512x64_1_1_0_0_n_n.rhsIdx i q 1).val = (q ⟨0, by decide⟩).val :=
  dot_S512x128_S64x128_S512x64_1_1_0_0_n_n.rhsIdx_val_of_single rfl i q

/-- The product into the zero accumulator at `(p, o)`: the sum over the 128 input features `j` of
    `s (p, j) · w (o, j)`. -/
theorem mmB_at (s : FVec Ideal S512x128 .f32) (w : FVec Ideal S64x128 .f32) (p : Fin 512) (o : Fin 64) :
    matmul (F := Ideal) dot_S512x128_S64x128_S512x64_1_1_0_0_n_n (some .fp32) s w (constant (F := Ideal) S512x64 .f32 0x00000000#32) (ix2 p o)
      = ∑ j : Fin 128, s (ix2 p j) * w (ix2 o j) := by
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  have el : dot_S512x128_S64x128_S512x64_1_1_0_0_n_n.lhsIdx (ix2 p o) ((contrEquiv1 dot_S512x128_S64x128_S512x64_1_1_0_0_n_n 128 rfl rfl).symm k) = ix2 p k := funext fun b => Fin.ext (by
    match b with
    | ⟨0, _⟩ => exact mmB_lhs0 _ _
    | ⟨1, _⟩ => exact (mmB_lhs1 _ _).trans hk)
  have er : dot_S512x128_S64x128_S512x64_1_1_0_0_n_n.rhsIdx (ix2 p o) ((contrEquiv1 dot_S512x128_S64x128_S512x64_1_1_0_0_n_n 128 rfl rfl).symm k) = ix2 o k := funext fun b => Fin.ext (by
    match b with
    | ⟨0, _⟩ => exact mmB_rhs0 _ _
    | ⟨1, _⟩ => exact (mmB_rhs1 _ _).trans hk)
  rw [el, er]

/-- What the region stores last: the accumulator through the linear layer, plus the bias of output `o`. -/
theorem pay3_at (s : Vec Ideal S512x128 .f32) (w : Vec Ideal S64x128 .f32) (b : Vec Ideal S1x64 .f32) (p : Fin 512) (o : Fin 64) :
    k0_pay3 (F := Ideal) s w b (ix2 p o) = (∑ j : Fin 128, s (ix2 p j) * w (ix2 o j)) + b (ix2 0 o) := by
  unfold k0_pay3
  refine (addf_apply _ _ _).trans ?_
  refine congrArg₂ (· + ·) (mmB_at s w p o) ?_
  refine (broadcastTo_1b_ab_apply _ _ p o).trans ?_
  rw [shapeCast_self]

/-! ## The two block loads of trip `k` -/

/-- The block of the adjacency rows: position `y` of the block is row `y 0`, column `512 k + y 1` of the array. -/
theorem rectA_idx_0 (k : Fin k0_t1_loop.trips) (y : S512x512.Idx) :
    (((Rect.unit (s := S512x8192) (k0_off1 k) S512x512.size (k0_off1_inb k)).idx y 0 : Fin 512) : ℕ) = y 0 := by
  rw [LoadRect.idx_apply]; simp [Rect.unit, k0_off1_eq k]
theorem rectA_idx_1 (k : Fin k0_t1_loop.trips) (y : S512x512.Idx) :
    (((Rect.unit (s := S512x8192) (k0_off1 k) S512x512.size (k0_off1_inb k)).idx y 1 : Fin 8192) : ℕ) = 512 * k.val + y 1 := by
  rw [LoadRect.idx_apply]; simp [Rect.unit, k0_off1_eq k]

theorem ldA_at {F : FTy → Type} (A : Vec F S512x8192 .f32) (k : Fin k0_t1_loop.trips) (p q : Fin 512) (h : 512 * k.val + q.val < 8192) :
    View.ld A (Rect.unit (s := S512x8192) (k0_off1 k) S512x512.size (k0_off1_inb k)) (ix2 p q) = A (ix2 p ⟨512 * k.val + q.val, h⟩) := by
  refine congrArg A (funext fun b => Fin.ext ?_)
  match b with
  | ⟨0, _⟩ => exact rectA_idx_0 k (ix2 p q)
  | ⟨1, _⟩ => exact rectA_idx_1 k (ix2 p q)

/-- The block of the node inputs: position `y` of the block is row `512 k + y 0`, column `y 1` of the array. -/
theorem rectX_idx_0 (k : Fin k0_t1_loop.trips) (y : S512x128.Idx) :
    (((Rect.unit (s := S8192x128) (k0_off2 k) S512x128.size (k0_off2_inb k)).idx y 0 : Fin 8192) : ℕ) = 512 * k.val + y 0 := by
  rw [LoadRect.idx_apply]; simp [Rect.unit, k0_off2_eq k]
theorem rectX_idx_1 (k : Fin k0_t1_loop.trips) (y : S512x128.Idx) :
    (((Rect.unit (s := S8192x128) (k0_off2 k) S512x128.size (k0_off2_inb k)).idx y 1 : Fin 128) : ℕ) = y 1 := by
  rw [LoadRect.idx_apply]; simp [Rect.unit, k0_off2_eq k]

theorem ldX_at {F : FTy → Type} (X : Vec F S8192x128 .f32) (k : Fin k0_t1_loop.trips) (q : Fin 512) (j : Fin 128) (h : 512 * k.val + q.val < 8192) :
    View.ld X (Rect.unit (s := S8192x128) (k0_off2 k) S512x128.size (k0_off2_inb k)) (ix2 q j) = X (ix2 ⟨512 * k.val + q.val, h⟩ j) := by
  refine congrArg X (funext fun b => Fin.ext ?_)
  match b with
  | ⟨0, _⟩ => exact rectX_idx_0 k (ix2 q j)
  | ⟨1, _⟩ => exact rectX_idx_1 k (ix2 q j)

end Cert.KernelIdeal.Reg0Pay

end
-- ==== Proof.Reg0Blocks.lean ====
/-
  Region 0's blocks. The grid has sixteen points; at point `t` the first window's block is rows
  `512t … 512t+511` of the 8192×8192 array, the next three windows hold their whole arrays, and the output's block is
  rows `512t … 512t+511` of the 8192×64 feature array. The sixteen output blocks cover the feature array: row `r`
  lies in the block of point `r / 512`.
-/
import proofs.«163462_j12197707120647_2_alg».proof.Proof.Gen.KernelIdeal.Frame
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (V : (c : Dev nD) → (b : Ref sig .tc) → Buf (Elt F) ((c : Thread nD τ).loc b))

/-- The printed index maps, decided over the sixteen points: the first window and the output move down one row block
    per point, the three resident windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first window's block at point `t`, read at `(p, q)`: row `512t + p`, column `q` of the array. -/
theorem rows_at (c : Dev nD) (t : Fin cfg0.N) (p : Fin 512) (q : Fin 8192) (h : 512 * t.val + p.val < 8192) :
    (iblk0 V c 0 t : Vec F S512x8192 .f32) (ix2 p q) = V c main_arg0 (ix2 ⟨512 * t.val + p.val, h⟩ q) := by
  show V c main_arg0 (((cfg0.win 0).blk t).view.emb (ix2 p q)) = _
  refine congrArg (V c main_arg0) (funext fun a => Fin.ext ?_)
  obtain ⟨e0, e1, -⟩ := idx_facts t
  match a with
  | ⟨0, _⟩ => show win0_0.index t (0 : Fin 2) * 512 + 1 * p.val = 512 * t.val + p.val; rw [e0]; omega
  | ⟨1, _⟩ => show win0_0.index t (1 : Fin 2) * 8192 + 1 * q.val = q.val; rw [e1]; omega

/-- The second window's block is the whole 8192×128 array, -/
theorem whole1 (c : Dev nD) (t : Fin cfg0.N) : (iblk0 V c 1 t : Vec F S8192x128 .f32) = V c main_arg1 := by
  funext y
  show V c main_arg1 (((cfg0.win 1).blk t).view.emb y) = V c main_arg1 y
  refine congrArg (V c main_arg1) (funext fun a => Fin.ext ?_)
  obtain ⟨-, -, e0, e1, -⟩ := idx_facts t
  match a with
  | ⟨0, _⟩ => show win0_1.index t (0 : Fin 2) * 8192 + 1 * (y 0).val = (y 0).val; rw [e0]; omega
  | ⟨1, _⟩ => show win0_1.index t (1 : Fin 2) * 128 + 1 * (y 1).val = (y 1).val; rw [e1]; omega

/-- the third's the whole 64×128 array, -/
theorem whole2 (c : Dev nD) (t : Fin cfg0.N) : (iblk0 V c 2 t : Vec F S64x128 .f32) = V c main_arg3 := by
  funext y
  show V c main_arg3 (((cfg0.win 2).blk t).view.emb y) = V c main_arg3 y
  refine congrArg (V c main_arg3) (funext fun a => Fin.ext ?_)
  obtain ⟨-, -, -, -, e0, e1, -⟩ := idx_facts t
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- the fourth's the whole 1×64 row. -/
theorem whole3 (c : Dev nD) (t : Fin cfg0.N) : (iblk0 V c 3 t : Vec F S1x64 .f32) = V c main_v0 := by
  funext y
  show V c main_v0 (((cfg0.win 3).blk t).view.emb y) = V c main_v0 y
  refine congrArg (V c main_v0) (funext fun a => Fin.ext ?_)
  obtain ⟨-, -, -, -, -, -, e0, e1, -⟩ := idx_facts t
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The output's block at point `t` places `(p, o)` at row `512t + p`, column `o` of the feature array. -/
theorem out_emb (t : Fin cfg0.N) (p : Fin 512) (o : Fin 64) (h : 512 * t.val + p.val < 8192) :
    ((cfg0.win 4).blk t).view.emb (ix2 p o) = (ix2 ⟨512 * t.val + p.val, h⟩ o : S8192x64.Idx) := by
  refine funext fun a => Fin.ext ?_
  obtain ⟨-, -, -, -, -, -, -, -, e0, e1⟩ := idx_facts t
  match a with
  | ⟨0, _⟩ => show win0_4.index t (0 : Fin 2) * 512 + 1 * p.val = 512 * t.val + p.val; rw [e0]; omega
  | ⟨1, _⟩ => show win0_4.index t (1 : Fin 2) * 64 + 1 * o.val = o.val; rw [e1]; omega

/-- An index of the feature array is in point `t`'s output block iff each coordinate is in the block's range. -/
theorem mem_out (t : Fin cfg0.N) (i : S8192x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v1).slice (win0_4.rect t)).set ↔ _
  rw [View.set_slice_whole, Rect.mem_set_unit]
  exact Iff.rfl

/-- THE COVER: row `r` of the feature array lies in the output block of point `r / 512`. -/
theorem cover_out (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  have hN : (i 0).val / 512 < cfg0.N := by
    show (i 0).val / 512 < 16
    omega
  refine ⟨⟨(i 0).val / 512, hN⟩, flush0_4 _, ?_⟩
  rw [mem_out]
  obtain ⟨-, -, -, -, -, -, -, -, e0, e1⟩ := idx_facts ⟨(i 0).val / 512, hN⟩
  intro a
  match a with
  | ⟨0, _⟩ =>
    show win0_4.index ⟨(i 0).val / 512, hN⟩ (0 : Fin 2) * 512 ≤ (i 0).val ∧ (i 0).val < win0_4.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win0_4.index ⟨(i 0).val / 512, hN⟩ (1 : Fin 2) * 64 ≤ (i 1).val ∧ (i 1).val < win0_4.index ⟨(i 0).val / 512, hN⟩ (1 : Fin 2) * 64 + 64
    rw [e1]
    omega

end Cert.KernelIdeal.Reg0

end
-- ==== Proof.Spec.lean ====
/-
  The mathematics both programs compute, as functions of the argument arrays read at coordinates.
  Features: a node's row of the aggregated inputs `A·X`, sent through the linear layer `·Wᵀ + b`.
  Force: for two nodes `r`, `c` with feature rows `u`, `v` the squared distance is taken as
  `|u|² + |v|² − 2·⟨u, v⟩`, clipped below at zero; where it is positive its square root is the distance,
  elsewhere the distance is zero; the force is the distance times the pair's weight.
  The three literals are kept as their f32 words: the same word appears on both sides and is never evaluated.
-/
import Idealize.ShloMosaic.PureOps.Ideal
import Idealize.ShloMosaic.Lib.ValueIdx

noncomputable section

namespace Cert.Force

open Idealize.ShloMosaic Idealize.ShloMosaic.ValueIdx
open scoped BigOperators

/-- The words of `0.0`, `1.0` and `2.0`. -/
abbrev zeroW : EReal := Ideal.ofBits .f32 0x00000000#32
abbrev oneW : EReal := Ideal.ofBits .f32 0x3F800000#32
abbrev twoW : EReal := Ideal.ofBits .f32 0x40000000#32

/-- Entry `(r, j)` of the aggregation `A·X`: the sum over all 8192 nodes `k` of `A r k · X k j`. -/
def agg (A : (⟨2, ![8192, 8192]⟩ : Shape).Idx → EReal) (X : (⟨2, ![8192, 128]⟩ : Shape).Idx → EReal)
    (r : Fin 8192) (j : Fin 128) : EReal :=
  ∑ k : Fin 8192, A (ix2 r k) * X (ix2 k j)

/-- Entry `(r, o)` of the new features `(A·X)·Wᵀ + b`. -/
def feat (A : (⟨2, ![8192, 8192]⟩ : Shape).Idx → EReal) (X : (⟨2, ![8192, 128]⟩ : Shape).Idx → EReal)
    (W : (⟨2, ![64, 128]⟩ : Shape).Idx → EReal) (b : Fin 64 → EReal) (r : Fin 8192) (o : Fin 64) : EReal :=
  (∑ j : Fin 128, agg A X r j * W (ix2 o j)) + b o

/-- The squared length of node `r`'s feature row. -/
def sqn (nf : Fin 8192 → Fin 64 → EReal) (r : Fin 8192) : EReal := ∑ k : Fin 64, nf r k * nf r k

/-- The inner product of two nodes' feature rows. -/
def cross (nf : Fin 8192 → Fin 64 → EReal) (r c : Fin 8192) : EReal := ∑ k : Fin 64, nf r k * nf c k

/-- The clipped squared distance `max (|u|² + |v|² − 2⟨u,v⟩) 0`. -/
def d2 (nf : Fin 8192 → Fin 64 → EReal) (r c : Fin 8192) : EReal :=
  max (sqn nf r + sqn nf c - twoW * cross nf r c) zeroW

/-- The distance: the root of the clipped squared distance where that is positive, zero elsewhere (the root is
    taken of `1` there, and discarded). -/
def dist (nf : Fin 8192 → Fin 64 → EReal) (r c : Fin 8192) : EReal :=
  Scalar.select (Ideal.cmp .ogt (d2 nf r c) zeroW)
    (Ideal.sqrt (Scalar.select (Ideal.cmp .ogt (d2 nf r c) zeroW) (d2 nf r c) oneW)) zeroW

/-- The force between nodes `r` and `c`: their distance times the pair's weight. -/
def force (nf : Fin 8192 → Fin 64 → EReal) (p : (⟨2, ![8192, 8192]⟩ : Shape).Idx → EReal) (r c : Fin 8192) : EReal :=
  dist nf r c * p (ix2 r c)

/-- The features as an array over `[8192, 64]`, and the forces as one over `[8192, 8192]`. -/
def featArr (A : (⟨2, ![8192, 8192]⟩ : Shape).Idx → EReal) (X : (⟨2, ![8192, 128]⟩ : Shape).Idx → EReal)
    (W : (⟨2, ![64, 128]⟩ : Shape).Idx → EReal) (b : Fin 64 → EReal) : (⟨2, ![8192, 64]⟩ : Shape).Idx → EReal :=
  fun i => feat A X W b (i 0) (i 1)

def forceArr (nfA : (⟨2, ![8192, 64]⟩ : Shape).Idx → EReal) (p : (⟨2, ![8192, 8192]⟩ : Shape).Idx → EReal) :
    (⟨2, ![8192, 8192]⟩ : Shape).Idx → EReal :=
  fun i => force (fun r k => nfA (ix2 r k)) p (i 0) (i 1)

end Cert.Force

end
-- ==== Proof.Reg0Array.lean ====
/-
  Region 0's output array as one function of the arrays the region finds. At row `p`, column `j` the scratch after
  `n` trips is the sum of the first `512·n` terms `A p q · X q j` of the aggregation — each trip adds its 512 terms
  to what it finds, the zero fill starts the sum at zero — so after all sixteen trips it is the whole sum over the
  8192 nodes, grouped in sixteen chunks: a regrouping of one finite sum. The output block's entry `(p, o)` is then
  the layer applied to that row, and the sixteen row blocks cover the feature array.
-/
import proofs.«163462_j12197707120647_2_alg».proof.Proof.Reg0Loop
import proofs.«163462_j12197707120647_2_alg».proof.Proof.Reg0Pay
import proofs.«163462_j12197707120647_2_alg».proof.Proof.Reg0Blocks
import proofs.«163462_j12197707120647_2_alg».proof.Proof.Spec

set_option maxRecDepth 16384

noncomputable section

namespace Cert.KernelIdeal.Reg0

open Cert.KernelIdeal Cert.KernelIdeal.Gen Cert.KernelIdeal.Reg0Pay
open Idealize.ShloMosaic Idealize.ShloMosaic.TcCoe Idealize.ShloMosaic.Tactic Idealize.ShloMosaic.ValueIdx
open Idealize.SL Idealize.SL.Sem
open scoped BigOperators

/-- The loop makes sixteen trips. -/
theorem trips_eq : k0_t1_loop.trips = 16 := by decide +kernel

/-- Term `q` of the aggregation's sum at row `p`, column `j` (zero past the last node: never reached). -/
def term (A : Vec Ideal S512x8192 .f32) (X : Vec Ideal S8192x128 .f32) (p : Fin 512) (j : Fin 128) (q : ℕ) : EReal :=
  if h : q < 8192 then A (ix2 p ⟨q, h⟩) * X (ix2 ⟨q, h⟩ j) else 0

/-- After `n` trips the scratch holds, at `(p, j)`, the sum of the first `512·n` terms. -/
theorem scratch_at (A : Vec Ideal S512x8192 .f32) (X : Vec Ideal S8192x128 .f32) (p : Fin 512) (j : Fin 128) :
    ∀ n : ℕ, n ≤ 16 → scratchAfter (F := Ideal) A X n (ix2 p j) = ∑ q ∈ Finset.range (512 * n), term A X p j q
  | 0, _ => by
    rw [scratchAfter, pay1_at]
    simp
  | n + 1, hn => by
    have h : n < k0_t1_loop.trips := by rw [trips_eq]; omega
    have hs := scratchAfter_succ (F := Ideal) A X ⟨n, h⟩
    rw [show (⟨n, h⟩ : Fin k0_t1_loop.trips).val + 1 = n + 1 from rfl,
      show (⟨n, h⟩ : Fin k0_t1_loop.trips).val = n from rfl] at hs
    rw [hs, pay2_at, scratch_at A X p j n (by omega), show 512 * (n + 1) = 512 * n + 512 from by ring,
      Finset.sum_range_add, Finset.sum_range (fun x => term A X p j (512 * n + x))]
    refine congrArg (_ + ·) (Finset.sum_congr rfl fun q _ => ?_)
    have hq : 512 * n + q.val < 8192 := by have := q.isLt; omega
    rw [ldA_at A ⟨n, h⟩ p q hq, ldX_at X ⟨n, h⟩ q j hq, term, dif_pos hq]

/-- After all the trips: the whole sum over the 8192 nodes. -/
theorem scratch_full (A : Vec Ideal S512x8192 .f32) (X : Vec Ideal S8192x128 .f32) (p : Fin 512) (j : Fin 128) :
    scratchAfter (F := Ideal) A X k0_t1_loop.trips (ix2 p j) = ∑ q : Fin 8192, A (ix2 p q) * X (ix2 q j) := by
  rw [trips_eq, scratch_at A X p j 16 le_rfl, show 512 * 16 = 8192 from rfl, Finset.sum_range]
  exact Finset.sum_congr rfl fun q _ => by rw [term, dif_pos q.isLt]

/-- The output block's entry `(p, o)`: the layer applied to row `p` of the aggregation of the point's row block. -/
theorem out_at (c : Dev nD) (i : grid0.Coords) (arg1 : Memref sig .tc .vmem S512x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole)
    (x0 : Vec Ideal S512x8192 .f32) (x1 : Vec Ideal S8192x128 .f32) (x2 : Vec Ideal S64x128 .f32) (x3 : Vec Ideal S1x64 .f32) (p : Fin 512) (o : Fin 64) :
    out0_A_4 (F := Ideal) c i arg1 harg1 arg2 harg2 arg3 harg3 arg4 harg4 arg5 harg5 arg6 harg6 x0 x1 x2 x3 (ix2 p o)
      = (∑ j : Fin 128, (∑ q : Fin 8192, x0 (ix2 p q) * x1 (ix2 q j)) * x2 (ix2 o j)) + x3 (ix2 (0 : Fin 1) o) := by
  rw [out_piece, pay3_at]
  simp only [scratch_full]

variable (V : (c : Dev nD) → (b : Ref sig .tc) → Buf (Elt Ideal) ((c : Thread nD τ).loc b))

/-- The feature array of what the region finds: the aggregation of its first two arrays through the layer of the third
    and the row. -/
abbrev found (c : Dev nD) : S8192x64.Idx → EReal :=
  Cert.Force.featArr (V c main_arg0) (V c main_arg1) (V c main_arg3) (fun o => (V c main_v0 : S1x64.Idx → EReal) (ix2 (0 : Fin 1) o))

/-- WHAT POINT `t` WRITES BACK is block `t` of that feature array. -/
theorem flushed_eq (c : Dev nD) (t : Fin cfg0.N) :
    (dat0 V c).flushed 4 t = ((cfg0.win 4).blk t).view.read (Elt Ideal) (found V c) := by
  show (cfg0.win 4).cut (grid0.coords t) ((dat0 V c).after 4 t) = _
  rw [after0_4]
  unfold outsAt0
  funext y
  have ht : t.val < 16 := t.isLt
  obtain ⟨p, o, rfl⟩ : ∃ (p : Fin 512) (o : Fin 64), y = ix2 p o := ⟨y 0, y 1, eq_ix2 y⟩
  have hp : 512 * t.val + p.val < 8192 := by have := p.isLt; omega
  show out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (iblk0 V c 2 t) (iblk0 V c 3 t) (ix2 p o)
    = found V c (((cfg0.win 4).blk t).view.emb (ix2 p o))
  rw [out_at, out_emb t p o hp, whole1 V c t, whole2 V c t, whole3 V c t]
  simp only [rows_at V c t p _ hp]
  rfl

/-- THE FEATURE ARRAY after region 0: the features of what the region finds. -/
theorem array0 (c : Dev nD) : (dat0 V c).arrAt 4 cfg0.N = found V c :=
  (dat0 V c).arrAt_eq_of_cover 4 (found V c) (fun t _ => flushed_eq V c t) cover_out

end Cert.KernelIdeal.Reg0

end
-- ==== Proof.Reg1.lean ====
/-
  The pairwise-force region of the idealized kernel, read as a value: after its 64 grid points the output array holds, at
  (r, c), the force between nodes r and c — their distance, from the feature rows the region finds in its first operand,
  times the pair's weight.
-/
import proofs.«163462_j12197707120647_2_alg».proof.Proof.Gen.KernelIdeal.Frame
import proofs.«163462_j12197707120647_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx
open Idealize.ShloMosaic.Tactic
open scoped BigOperators

/-- The zero offsets of the whole-block loads and of the one store, however spelt. -/
theorem hz : (![0, 0] : Fin 2 → Nat) = fun _ => 0 := funext fun a => by fin_cases a <;> rfl

/-! ## What the body leaves in the output's staging buffer -/

section Generic
variable {F : FTy → Type} [FloatOps F]

/-- The body's one store covers the output block: what it leaves is the payload of its three loads — the two
    1024-row blocks of the resident feature array at the offsets the grid point computes, and the weight block. -/
theorem out_eq_payload (c : Dev nD) (i : grid1.Coords) (arg2 : Memref sig .tc .vmem S8192x64 .f32) (h2 : arg2.IsWhole)
    (arg3 : Memref sig .tc .vmem S1024x1024 .f32) (h3 : arg3.IsWhole) (arg4 : Memref sig .tc .vmem S1024x1024 .f32) (h4 : arg4.IsWhole)
    (x0 : Vec F S8192x64 .f32) (x1 : Vec F S1024x1024 .f32) :
    out1_A_2 c i arg2 h2 arg3 h3 arg4 h4 x0 x1
      = k1_pay1 (View.ld x0 (Rect.unit (s := S8192x64) (k1_off1 i) S1024x64.size (k1_off1_inb i)))
          (View.ld x0 (Rect.unit (s := S8192x64) (k1_off2 i) S1024x64.size (k1_off2_inb i))) x1 := by
  unfold out1_A_2
  rw [View.read_writes_eq_canon _ _ _ (cover1_A_2 c i arg2 h2 arg3 h3 arg4 h4 x0 x1)]
  unfold kernelRun1_A
  dsimp only
  rw [View.canon_unit_zero hz]
  simp only [View.readAt_eq_ld, h2.read_unread, h3.read_unread, View.ld_unit_zero (S := S1024x1024) hz]

end Generic

/-! ## Layout operations of a row sum kept as a column, read at coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The payload at an index -/

/-- The distance as a function of the two squared lengths and the inner product: `|u|² + |v|² − 2⟨u,v⟩` clipped below
    at zero, its root where positive, zero elsewhere. -/
def distOf (s1 s2 cr : EReal) : EReal :=
  Scalar.select (Ideal.cmp .ogt (max (s1 + s2 - Cert.Force.twoW * cr) Cert.Force.zeroW) Cert.Force.zeroW)
    (Ideal.sqrt (Scalar.select (Ideal.cmp .ogt (max (s1 + s2 - Cert.Force.twoW * cr) Cert.Force.zeroW) Cert.Force.zeroW)
      (max (s1 + s2 - Cert.Force.twoW * cr) Cert.Force.zeroW) Cert.Force.oneW)) Cert.Force.zeroW

theorem dist_eq_distOf (nf : Fin 8192 → Fin 64 → EReal) (r c : Fin 8192) :
    Cert.Force.dist nf r c = distOf (Cert.Force.sqn nf r) (Cert.Force.sqn nf c) (Cert.Force.cross nf r c) := rfl

/-- The body's pointwise tail — add the two squared lengths, take off twice the inner product, clip, root where
    positive, times the weight — at an index, over the three arrays it combines. -/
theorem dist_times_weight_apply (S1 S2 CR w : FVec Ideal S1024x1024 .f32) (j : S1024x1024.Idx) :
    mulf (select
        (cmpf .ogt (maximumf (subf (addf S1 S2) (mulf (broadcast S1024x1024 (Scalar.ofBits (F := Ideal) .f32 0x40000000#32)) CR))
          (broadcast S1024x1024 (Scalar.ofBits (F := Ideal) .f32 0x00000000#32))) (broadcast S1024x1024 (Scalar.ofBits (F := Ideal) .f32 0x00000000#32)))
        (sqrt (select
          (cmpf .ogt (maximumf (subf (addf S1 S2) (mulf (broadcast S1024x1024 (Scalar.ofBits (F := Ideal) .f32 0x40000000#32)) CR))
            (broadcast S1024x1024 (Scalar.ofBits (F := Ideal) .f32 0x00000000#32))) (broadcast S1024x1024 (Scalar.ofBits (F := Ideal) .f32 0x00000000#32)))
          (maximumf (subf (addf S1 S2) (mulf (broadcast S1024x1024 (Scalar.ofBits (F := Ideal) .f32 0x40000000#32)) CR))
            (broadcast S1024x1024 (Scalar.ofBits (F := Ideal) .f32 0x00000000#32)))
          (broadcast S1024x1024 (Scalar.ofBits (F := Ideal) .f32 0x3F800000#32))))
        (broadcast S1024x1024 (Scalar.ofBits (F := Ideal) .f32 0x00000000#32))) w j
      = distOf (S1 j) (S2 j) (CR j) * w j := rfl

/-- The lane sum of a block's squares, at row `p`: the sum over the row's 64 entries. -/
theorem rowSq_apply (x : FVec Ideal S1024x64 .f32) (p : Fin 1024) :
    multiReduction (F := Ideal) .add [1] S1024 (mulf x x) 0x00000000#32 reduces_S1024x64_S1024 (.inl rfl) rfl (ix1 p)
      = ∑ k : Fin 64, x (ix2 p k) * x (ix2 p k) := by
  refine (Ideal.multiReduction_add_single (mulf x x) 0x00000000#32 reduces_S1024x64_S1024 (.inl rfl) rfl (ix1 p)).trans ?_
  refine Finset.sum_congr rfl fun k _ => ?_
  have e : reduces_S1024x64_S1024.lift (ix1 p) k = ix2 p k :=
    funext fun a => Fin.ext (by match a with | ⟨0, _⟩ => rfl | ⟨1, _⟩ => rfl)
  rw [e]; rfl

/-- The row sums kept as a column and broadcast along the rows: at `(p, q)` the squared length of row `p`. -/
theorem rowSq_bcast (x : FVec Ideal S1024x64 .f32) (p q : Fin 1024) :
    broadcastTo S1024x1024
        (shapeCast S1024x1 (multiReduction (F := Ideal) .add [1] S1024 (mulf x x) 0x00000000#32 reduces_S1024x64_S1024 (.inl rfl) rfl)
          shapeCasts_S1024_S1024x1) broadcasts_S1024x1_S1024x1024 (ix2 p q)
      = ∑ k : Fin 64, x (ix2 p k) * x (ix2 p k) :=
  (broadcastTo_a1_ab_apply _ _ p q).trans ((shapeCast_a_a1_apply _ _ p 0).trans (rowSq_apply x p))

/-- The same column transposed to a row and broadcast down the columns: at `(p, q)` the squared length of row `q`. -/
theorem colSq_bcast (x : FVec Ideal S1024x64 .f32) (p q : Fin 1024) :
    broadcastTo S1024x1024
        (transpose S1x1024 [1, 0]
          (shapeCast S1024x1 (multiReduction (F := Ideal) .add [1] S1024 (mulf x x) 0x00000000#32 reduces_S1024x64_S1024 (.inl rfl) rfl)
            shapeCasts_S1024_S1024x1) transposes_S1024x1_p1_0_S1x1024) broadcasts_S1x1024_S1024x1024 (ix2 p q)
      = ∑ k : Fin 64, x (ix2 q k) * x (ix2 q k) :=
  (broadcastTo_1b_ab_apply _ _ p q).trans ((transpose_ix2_apply _ _ (0 : Fin 1) q).trans
    ((shapeCast_a_a1_apply _ _ q 0).trans (rowSq_apply x q)))

/-- The matmul's operand indices: the left operand is read at the output's row, the right at the output's column (as a
    row of the second block), both at the contraction's coordinate. -/
theorem lhsIdx_row (j : S1024x1024.Idx) (c : dot_S1024x64_S1024x64_S1024x1024_1_1_0_0_n_n.contr.Idx) :
    (dot_S1024x64_S1024x64_S1024x1024_1_1_0_0_n_n.lhsIdx j c 0).val = (j 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem rhsIdx_row (j : S1024x1024.Idx) (c : dot_S1024x64_S1024x64_S1024x1024_1_1_0_0_n_n.contr.Idx) :
    (dot_S1024x64_S1024x64_S1024x1024_1_1_0_0_n_n.rhsIdx j c 0).val = (j 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl

/-- The matmul of the two row blocks over their 64 columns into zeros: at `(p, q)` the inner product of row `p` of the
    first and row `q` of the second. -/
theorem cross_apply (x y : FVec Ideal S1024x64 .f32) (p q : Fin 1024) :
    matmul dot_S1024x64_S1024x64_S1024x1024_1_1_0_0_n_n (some .fp32) x y (constant (F := Ideal) S1024x1024 .f32 0x00000000#32) (ix2 p q)
      = ∑ k : Fin 64, x (ix2 p k) * y (ix2 q k) := by
  refine (Ideal.matmul_constant_zero_apply dot_S1024x64_S1024x64_S1024x1024_1_1_0_0_n_n (some .fp32) x y (ix2 p q)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q)
      ((contrEquiv1 dot_S1024x64_S1024x64_S1024x1024_1_1_0_0_n_n 64 rfl rfl).symm k) = ix2 p k :=
    funext fun a => Fin.ext (by
      match a with
      | ⟨0, _⟩ => exact lhsIdx_row _ _
      | ⟨1, _⟩ => exact (dot_S1024x64_S1024x64_S1024x1024_1_1_0_0_n_n.lhsIdx_val_of_single rfl _ _).trans hk)
  have er : dot_S1024x64_S1024x64_S1024x1024_1_1_0_0_n_n.rhsIdx (ix2 p q)
      ((contrEquiv1 dot_S1024x64_S1024x64_S1024x1024_1_1_0_0_n_n 64 rfl rfl).symm k) = ix2 q k :=
    funext fun a => Fin.ext (by
      match a with
      | ⟨0, _⟩ => exact rhsIdx_row _ _
      | ⟨1, _⟩ => exact (dot_S1024x64_S1024x64_S1024x1024_1_1_0_0_n_n.rhsIdx_val_of_single rfl _ _).trans hk)
  rw [el, er]

/-- THE PAYLOAD AT (p, q): the distance of row `p` of the first block and row `q` of the second, times the weight. -/
theorem payload_apply (a b : Vec Ideal S1024x64 .f32) (w : Vec Ideal S1024x1024 .f32) (p q : Fin 1024) :
    k1_pay1 (F := Ideal) a b w (ix2 p q)
      = distOf (∑ k : Fin 64, a (ix2 p k) * a (ix2 p k)) (∑ k : Fin 64, b (ix2 q k) * b (ix2 q k))
          (∑ k : Fin 64, a (ix2 p k) * b (ix2 q k)) * w (ix2 p q) := by
  have ha : shapeCast S1024x64 a shapeCasts_S1024x64_S1024x64 = a := shapeCast_self _ _
  have hb : shapeCast S1024x64 b shapeCasts_S1024x64_S1024x64 = b := shapeCast_self _ _
  have e1 := (rowSq_bcast (shapeCast S1024x64 a shapeCasts_S1024x64_S1024x64) p q).trans
    (congrArg (fun x : FVec Ideal S1024x64 .f32 => ∑ k : Fin 64, x (ix2 p k) * x (ix2 p k)) ha)
  have e2 := (colSq_bcast (shapeCast S1024x64 b shapeCasts_S1024x64_S1024x64) p q).trans
    (congrArg (fun x : FVec Ideal S1024x64 .f32 => ∑ k : Fin 64, x (ix2 q k) * x (ix2 q k)) hb)
  have e3 := (cross_apply (shapeCast S1024x64 a shapeCasts_S1024x64_S1024x64) (shapeCast S1024x64 b shapeCasts_S1024x64_S1024x64) p q).trans
    (congrArg₂ (fun (x y : FVec Ideal S1024x64 .f32) => ∑ k : Fin 64, x (ix2 p k) * y (ix2 q k)) ha hb)
  refine (dist_times_weight_apply _ _ _ w (ix2 p q)).trans ?_
  exact congrArg (fun z => z * w (ix2 p q)) (congr (congr (congrArg distOf e1) e2) e3)

/-! ## The blocks: which rows and columns a grid point reads and writes -/

/-- A load of 1024 rows of the feature array from row offset `1024 * n` reads, at `(p, k)`, row `1024 * n + p`. -/
theorem load_rows (A : Vec Ideal S8192x64 .f32) (off : Fin 2 → Nat) (inb : ∀ a, off a + S1024x64.size a ≤ S8192x64.size a)
    (n : Nat) (hoff : off = ![1024 * n, 0]) (p : Fin 1024) (k : Fin 64) (r : Fin 8192) (hr : r.val = 1024 * n + p.val) :
    View.ld A (Rect.unit (s := S8192x64) off S1024x64.size inb) (ix2 p k) = A (ix2 r k) := by
  subst hoff
  refine congrArg A (funext fun a => Fin.ext ?_)
  match a with
  | ⟨0, _⟩ => show 1024 * n + 1 * p.val = r.val; omega
  | ⟨1, _⟩ => show 0 + 1 * k.val = k.val; omega

/-- AT A POINT: on the two row blocks of the feature array `A` that grid point `i` loads and a weight block `W` that
    holds, at `(p, q)`, the weight of the pair `(1024·i₀ + p, 1024·i₁ + q)`, the payload at `(p, q)` is that pair's force. -/
theorem payload_is_force (A X0 : Vec Ideal S8192x64 .f32) (P : Vec Ideal S8192x8192 .f32) (W : Vec Ideal S1024x1024 .f32) (i : grid1.Coords)
    (hX0 : X0 = A) (jj : S1024x1024.Idx) (e : S8192x8192.Idx)
    (h0 : (e 0).val = 1024 * (i 0).val + (jj 0).val) (h1 : (e 1).val = 1024 * (i 1).val + (jj 1).val)
    (hW : W jj = P e) :
    k1_pay1 (F := Ideal) (View.ld X0 (Rect.unit (s := S8192x64) (k1_off1 i) S1024x64.size (k1_off1_inb i)))
        (View.ld X0 (Rect.unit (s := S8192x64) (k1_off2 i) S1024x64.size (k1_off2_inb i))) W jj
      = Cert.Force.forceArr A P e := by
  subst hX0
  obtain ⟨p, q, rfl⟩ : ∃ (p q : Fin 1024), jj = ix2 p q := ⟨jj 0, jj 1, eq_ix2 jj⟩
  obtain ⟨r, c, rfl⟩ : ∃ (r c : Fin 8192), e = ix2 r c := ⟨e 0, e 1, eq_ix2 e⟩
  rw [payload_apply, hW]
  have e1 : ∀ k : Fin 64, View.ld X0 (Rect.unit (s := S8192x64) (k1_off1 i) S1024x64.size (k1_off1_inb i)) (ix2 p k) = X0 (ix2 r k) :=
    fun k => load_rows X0 _ _ (i 0).val (k1_off1_eq i) p k r h0
  have e2 : ∀ k : Fin 64, View.ld X0 (Rect.unit (s := S8192x64) (k1_off2 i) S1024x64.size (k1_off2_inb i)) (ix2 q k) = X0 (ix2 c k) :=
    fun k => load_rows X0 _ _ (i 1).val (k1_off2_eq i) q k c h1
  simp only [e1, e2]
  rfl

/-! ## From the blocks to the array -/

/-- The printed index maps over the 64 grid points: the feature window never moves; the weight window and the output
    window sit at block `(i₀, i₁)`. -/
theorem block_indices : ∀ t : Fin cfg1.N,
    win1_0.index t (0 : Fin 2) = 0 ∧ win1_0.index t (1 : Fin 2) = 0
    ∧ win1_1.index t (0 : Fin 2) = (grid1.coords t 0).val ∧ win1_1.index t (1 : Fin 2) = (grid1.coords t 1).val
    ∧ win1_2.index t (0 : Fin 2) = (grid1.coords t 0).val ∧ win1_2.index t (1 : Fin 2) = (grid1.coords t 1).val :=
  (by decide +kernel : ∀ t : Fin grid1.N, _)

/-- Every block of the 8 × 8 tiling is some point's. -/
theorem every_block_is_a_points : ∀ (q0 q1 : Fin 8), ∃ t : Fin cfg1.N, win1_2.index t = ![q0.val, q1.val] :=
  (by decide +kernel : ∀ (q0 q1 : Fin 8), ∃ t : Fin grid1.N, win1_2.index t = ![q0.val, q1.val])

section Region
variable (V : (c : Dev nD) → (b : Ref sig .tc) → Buf (Elt Ideal) ((c : Thread nD τ).loc b))

/-- The feature window's block is the whole feature array the region finds, at every point. -/
theorem feat_block_whole (c : Dev nD) (t : Fin cfg1.N) :
    (iblk1 V c 0 t : S8192x64.Idx → EReal) = (V c main_v1 : S8192x64.Idx → EReal) := by
  obtain ⟨f0, f1, -⟩ := block_indices t
  funext x
  unfold iblk1
  show (V c main_v1 : S8192x64.Idx → EReal) (((cfg1.win 0).blk t).view.emb x) = _
  refine congrArg (V c main_v1 : S8192x64.Idx → EReal) (funext fun a => Fin.ext ?_)
  match a with
  | ⟨0, _⟩ => show win1_0.index t (0 : Fin 2) * 8192 + 1 * (x 0).val = (x 0).val; rw [f0]; omega
  | ⟨1, _⟩ => show win1_0.index t (1 : Fin 2) * 64 + 1 * (x 1).val = (x 1).val; rw [f1]; omega

/-- WHAT POINT `t` WRITES BACK is block `t` of the force array of the features and weights the region finds. -/
theorem writes_force_block (c : Dev nD) (t : Fin cfg1.N) :
    (dat1 (F := Ideal) V c).flushed 2 t
      = ((cfg1.win 2).blk t).view.read (Elt Ideal) (Cert.Force.forceArr (V c main_v1) (V c main_arg2)) := by
  show (cfg1.win 2).cut (grid1.coords t) ((dat1 V c).after 2 t) = _
  rw [after1_2]
  unfold outsAt1
  rw [out_eq_payload]
  obtain ⟨-, -, g0, g1, o0, o1⟩ := block_indices t
  funext j
  show _ = Cert.Force.forceArr (V c main_v1) (V c main_arg2) (((cfg1.win 2).blk t).view.emb j)
  refine payload_is_force (V c main_v1) (iblk1 V c 0 t) (V c main_arg2) (iblk1 V c 1 t) (grid1.coords t) (feat_block_whole V c t)
    ((cfg1.win 2).xinj (grid1.coords t) j) (((cfg1.win 2).blk t).view.emb j) ?_ ?_ ?_
  · show win1_2.index t (0 : Fin 2) * 1024 + 1 * (j 0).val = 1024 * (grid1.coords t 0).val + (j 0).val
    rw [o0]; omega
  · show win1_2.index t (1 : Fin 2) * 1024 + 1 * (j 1).val = 1024 * (grid1.coords t 1).val + (j 1).val
    rw [o1]; omega
  · unfold iblk1
    show (V c main_arg2 : S8192x8192.Idx → EReal) (((cfg1.win 1).blk t).view.emb ((cfg1.win 2).xinj (grid1.coords t) j)) = _
    refine congrArg (V c main_arg2 : S8192x8192.Idx → EReal) (funext fun a => Fin.ext ?_)
    match a with
    | ⟨0, _⟩ => show win1_1.index t (0 : Fin 2) * 1024 + 1 * (j 0).val = win1_2.index t (0 : Fin 2) * 1024 + 1 * (j 0).val; rw [g0, o0]
    | ⟨1, _⟩ => show win1_1.index t (1 : Fin 2) * 1024 + 1 * (j 1).val = win1_2.index t (1 : Fin 2) * 1024 + 1 * (j 1).val; rw [g1, o1]

/-- An index of the array is in point `t`'s block iff each coordinate is in the block's range on its axis. -/
theorem mem_out_block (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- THE COVER: entry `(r, c')` lies in the block of the point at `(r / 1024, c' / 1024)`. -/
theorem blocks_cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := every_block_is_a_points ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_out_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- THE ARRAY after the region's 64 points: at `(r, c')` the force between nodes `r` and `c'`, from the feature array and
    the weights the region finds. -/
theorem array1 (c : Dev nD) :
    (dat1 (F := Ideal) V c).arrAt 2 cfg1.N = Cert.Force.forceArr (V c main_v1) (V c main_arg2) :=
  (dat1 (F := Ideal) V c).arrAt_eq_of_cover 2 (Cert.Force.forceArr (V c main_v1) (V c main_arg2))
    (fun t _ => writes_force_block V c t) (fun i => blocks_cover i)

end Region

end Cert.KernelIdeal.Reg1

end
-- ==== Proof.KernelValue.lean ====
/-
  The idealized kernel's two results as functions of the launch memory. The feature array at the end is region 0's
  written-back output: the features of the four arguments region 0 finds as launched (the row it finds is the bias
  vector). The force array is region 1's written-back output: the forces of the feature array region 1 finds — region
  0's output again — and of the weights as launched.
-/
import proofs.«163462_j12197707120647_2_alg».proof.Proof.KernelRun
import proofs.«163462_j12197707120647_2_alg».proof.Proof.Boundaries
import proofs.«163462_j12197707120647_2_alg».proof.Proof.Reg0Array
import proofs.«163462_j12197707120647_2_alg».proof.Proof.Reg1
import proofs.«163462_j12197707120647_2_alg».proof.Proof.Spec

set_option maxRecDepth 16384

noncomputable section

namespace Cert.KernelIdeal.Values

open Cert.KernelIdeal Cert.KernelIdeal.Gen Cert.KernelIdeal.Boundary
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The features of the launch memory's arguments. -/
abbrev feats (c : Dev nD) : S8192x64.Idx → EReal :=
  Cert.Force.featArr (m ((c.tc : Thread nD τ).loc main_arg0)) (m ((c.tc : Thread nD τ).loc main_arg1))
    (m ((c.tc : Thread nD τ).loc main_arg3)) (fun o => m ((c.tc : Thread nD τ).loc main_arg4) (ix1 o))

/-- What region 0 finds is the launch memory's arguments and the bias vector as a row. -/
theorem found_eq (c : Dev nD) : Reg0.found (V1 m ρ) c = feats m c := by
  show Cert.Force.featArr (W1 m ρ c (Proc.devRef .tc main_arg0)) (W1 m ρ c (Proc.devRef .tc main_arg1))
      (W1 m ρ c (Proc.devRef .tc main_arg3)) (fun o => (W1 m ρ c (Proc.devRef .tc main_v0) : S1x64.Idx → EReal) (ix2 (0 : Fin 1) o)) = _
  rw [entry0_arg0, entry0_arg1, entry0_arg3]
  exact congrArg (Cert.Force.featArr _ _ _) (funext fun o => entry0_row_at m ρ c o)

/-- The feature array at the end of the run. -/
theorem feat_value (c : Dev nD) : W3 m ρ c (Proc.devRef .tc main_v1) = feats m c :=
  (last_feat m ρ c).trans ((Reg0.array0 (V1 m ρ) c).trans (found_eq m ρ c))

/-- The force array at the end of the run. -/
theorem force_value (c : Dev nD) :
    W3 m ρ c (Proc.devRef .tc main_v2) = Cert.Force.forceArr (feats m c) (m ((c.tc : Thread nD τ).loc main_arg2)) := by
  rw [last_force, Reg1.array1 (V2 m ρ) c]
  show Cert.Force.forceArr (W2 m ρ c (Proc.devRef .tc main_v1)) (W2 m ρ c (Proc.devRef .tc main_arg2)) = _
  rw [entry1_feat, entry1_weights, Reg0.array0, found_eq]

end Cert.KernelIdeal.Values

end
-- ==== Proof.RefValue.lean ====
/-
  The reference's two results, read one operation at a time, are the feature array and the force array of the
  specification.

  The reference first forms the aggregation A·X (a sum over all 8192 nodes), sends it through the linear layer
  (a sum over the 128 input features against the transposed weight, plus the bias repeated along the rows), and
  from the feature rows u_r builds |u_r|² (a row sum of squares), the inner products ⟨u_r, u_c⟩, the clipped
  squared distance max(|u_r|² + |u_c|² − 2⟨u_r, u_c⟩, 0), its guarded square root, and the product with the pair's
  weight.  The specification groups these operations in the same way, so each stage read at a pair of
  coordinates IS the specification's function there: the only facts used are that the word of 0.0 is the zero
  the row sum starts from, and that each composed index function of the reference is the evident pair of
  coordinates.
-/
import proofs.«163462_j12197707120647_2_alg».proof.Proof.Gen.ReferenceIdeal.Read
import proofs.«163462_j12197707120647_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal
open scoped BigOperators

/-! ## The features -/

/-- The first matrix product at `(r, j)` is the aggregation: the sum over all nodes `k` of `A r k · X k j`. -/
theorem v0_at (x0 : (⟨S8192x8192, .f32⟩ : BufTy).Contents (Elt Ideal)) (x1 : (⟨S8192x128, .f32⟩ : BufTy).Contents (Elt Ideal))
    (r : Fin 8192) (j : Fin 128) :
    Read.val_main_v0 (F := Ideal) x0 x1 (ix2 r j) = Cert.Force.agg x0 x1 r j := by
  rw [Read.val_main_v0_apply]
  unfold Cert.Force.agg
  refine Finset.sum_congr rfl fun k _ => ?_
  have el : Read.lidx_main_v0 (ix2 r j) k = ix2 r k :=
    funext fun a => Fin.ext (by match a with | ⟨0, _⟩ => rfl | ⟨1, _⟩ => rfl)
  have er : Read.ridx_main_v0 (ix2 r j) k = ix2 k j :=
    funext fun a => Fin.ext (by match a with | ⟨0, _⟩ => rfl | ⟨1, _⟩ => rfl)
  rw [el, er]

/-- The transposed weight at `(j, o)` is the weight at `(o, j)`. -/
theorem v1_at (x3 : (⟨S64x128, .f32⟩ : BufTy).Contents (Elt Ideal)) (j : Fin 128) (o : Fin 64) :
    Read.val_main_v1 (F := Ideal) x3 (ix2 j o) = x3 (ix2 o j) := by
  rw [Read.val_main_v1_apply]
  exact congrArg x3 (funext fun a => Fin.ext (by match a with | ⟨0, _⟩ => rfl | ⟨1, _⟩ => rfl))

/-- The bias, made a row and then repeated along the rows, at `(r, o)` is the bias at `o`. -/
theorem v4_at (x4 : (⟨S64, .f32⟩ : BufTy).Contents (Elt Ideal)) (r : Fin 8192) (o : Fin 64) :
    Read.val_main_v4 (F := Ideal) x4 (ix2 r o) = x4 (ix1 o) := by
  rw [Read.val_main_v4_apply, Read.val_main_v3_apply]
  exact congrArg x4 (funext fun a => Fin.ext (by match a with | ⟨0, _⟩ => rfl))

/-- The second matrix product at `(r, o)`: the sum over the input features `j` of the aggregation at `(r, j)` times
    the weight at `(o, j)`. -/
theorem v2_at (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (r : Fin 8192) (o : Fin 64) :
    Read.val_main_v2 (F := Ideal) x0 x1 x3 (ix2 r o) = ∑ j : Fin 128, Cert.Force.agg x0 x1 r j * x3 (ix2 o j) := by
  rw [Read.val_main_v2_apply]
  refine Finset.sum_congr rfl fun k _ => ?_
  have el : Read.lidx_main_v2 (ix2 r o) k = ix2 r k :=
    funext fun a => Fin.ext (by match a with | ⟨0, _⟩ => rfl | ⟨1, _⟩ => rfl)
  have er : Read.ridx_main_v2 (ix2 r o) k = ix2 k o :=
    funext fun a => Fin.ext (by match a with | ⟨0, _⟩ => rfl | ⟨1, _⟩ => rfl)
  rw [el, er, v0_at, v1_at]

/-- The feature stage at `(r, o)` is the specification's feature. -/
theorem v5_at (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal))
    (r : Fin 8192) (o : Fin 64) :
    Read.val_main_v5 (F := Ideal) x0 x1 x3 x4 (ix2 r o) = Cert.Force.feat x0 x1 x3 (fun o => x4 (ix1 o)) r o := by
  rw [Read.val_main_v5_apply, v2_at, v4_at]
  rfl

/-- The reference's feature stage is the specification's feature array. -/
theorem v5_is_feat (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) :
    Read.val_main_v5 (F := Ideal) x0 x1 x3 x4 = Cert.Force.featArr x0 x1 x3 (fun o => x4 (ix1 o)) := by
  funext i
  obtain ⟨r, o, rfl⟩ : ∃ r o, i = ix2 r o := ⟨i 0, i 1, eq_ix2 i⟩
  rw [v5_at]
  rfl

/-! ## The forces

  Below, the feature stage is kept as it stands: every later stage is read as a function of the feature rows
  `fun r k => (feature stage) (r, k)`, and only the last step replaces the stage by the specification's array. -/

/-- The row sum of the squared features, started from the word of `0.0`, at node `r` is the squared length of row `r`. -/
theorem v7_at (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (r : Fin 8192) :
    Read.val_main_v7 (F := Ideal) x0 x1 x3 x4 (ix1 r)
      = Cert.Force.sqn (fun r k => Read.val_main_v5 (F := Ideal) x0 x1 x3 x4 (ix2 r k)) r := by
  rw [Read.val_main_v7_apply, Read.val_main_cst_apply]
  show Ideal.ofBits .f32 0x00000000#32 + _ = _
  rw [Ideal.ofBits_zero_f32, zero_add]
  unfold Cert.Force.sqn
  refine Finset.sum_congr rfl fun k _ => ?_
  have e : Read.idx_main_v7 (ix1 r) k = ix2 r k := funext fun a => Fin.ext (by match a with | ⟨0, _⟩ => rfl | ⟨1, _⟩ => rfl)
  rw [Read.val_main_v6_apply, e]
  rfl

/-- The squared lengths spread over the pairs: `|u_r|²` down the columns plus `|u_c|²` along the rows. -/
theorem v12_at (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (r c : Fin 8192) :
    Read.val_main_v12 (F := Ideal) x0 x1 x3 x4 (ix2 r c)
      = Cert.Force.sqn (fun r k => Read.val_main_v5 (F := Ideal) x0 x1 x3 x4 (ix2 r k)) r + Cert.Force.sqn (fun r k => Read.val_main_v5 (F := Ideal) x0 x1 x3 x4 (ix2 r k)) c := by
  have e10 : Read.idx_main_v8 (Read.idx_main_v10 (ix2 r c)) = ix1 r := funext fun a => Fin.ext (by match a with | ⟨0, _⟩ => rfl)
  have e11 : Read.idx_main_v9 (Read.idx_main_v11 (ix2 r c)) = ix1 c := funext fun a => Fin.ext (by match a with | ⟨0, _⟩ => rfl)
  rw [Read.val_main_v12_apply, Read.val_main_v10_apply, Read.val_main_v8_apply, Read.val_main_v11_apply,
    Read.val_main_v9_apply, e10, e11, v7_at, v7_at]
  rfl

/-- The product of the features with their transpose at `(r, c)` is the inner product of rows `r` and `c`. -/
theorem v14_at (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (r c : Fin 8192) :
    Read.val_main_v14 (F := Ideal) x0 x1 x3 x4 (ix2 r c)
      = Cert.Force.cross (fun r k => Read.val_main_v5 (F := Ideal) x0 x1 x3 x4 (ix2 r k)) r c := by
  rw [Read.val_main_v14_apply]
  unfold Cert.Force.cross
  refine Finset.sum_congr rfl fun k _ => ?_
  have el : Read.lidx_main_v14 (ix2 r c) k = ix2 r k := funext fun a => Fin.ext (by match a with | ⟨0, _⟩ => rfl | ⟨1, _⟩ => rfl)
  have er : Read.idx_main_v13 (Read.ridx_main_v14 (ix2 r c) k) = ix2 c k := funext fun a => Fin.ext (by match a with | ⟨0, _⟩ => rfl | ⟨1, _⟩ => rfl)
  rw [Read.val_main_v13_apply, el, er]

/-- The clipped squared distance: `max (|u_r|² + |u_c|² − 2·⟨u_r, u_c⟩) 0`, with the literals kept as their words. -/
theorem v19_at (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (r c : Fin 8192) :
    Read.val_main_v19 (F := Ideal) x0 x1 x3 x4 (ix2 r c)
      = Cert.Force.d2 (fun r k => Read.val_main_v5 (F := Ideal) x0 x1 x3 x4 (ix2 r k)) r c := by
  rw [Read.val_main_v19_apply, Read.val_main_v17_apply, v12_at, Read.val_main_v16_apply, Read.val_main_v15_apply,
    Read.val_main_cst_0_apply, v14_at, Read.val_main_v18_apply, Read.val_main_cst_1_apply]
  rfl

/-- The last stage at `(r, c)`: the guarded root of the clipped squared distance times the pair's weight. -/
theorem v27_at (x0 : (⟨S8192x8192, .f32⟩ : BufTy).Contents (Elt Ideal)) (x1 : (⟨S8192x128, .f32⟩ : BufTy).Contents (Elt Ideal))
    (x2 : (⟨S8192x8192, .f32⟩ : BufTy).Contents (Elt Ideal)) (x3 : (⟨S64x128, .f32⟩ : BufTy).Contents (Elt Ideal))
    (x4 : (⟨S64, .f32⟩ : BufTy).Contents (Elt Ideal)) (r c : Fin 8192) :
    Read.val_main_v27 (F := Ideal) x0 x1 x2 x3 x4 (ix2 r c)
      = Cert.Force.force (fun r k => Read.val_main_v5 (F := Ideal) x0 x1 x3 x4 (ix2 r k)) x2 r c := by
  rw [Read.val_main_v27_apply, Read.val_main_v26_apply, Read.val_main_v24_apply, Read.val_main_v25_apply,
    Read.val_main_v22_apply, Read.val_main_v21_apply, v19_at, Read.val_main_v20_apply, Read.val_main_cst_2_apply,
    Read.val_main_call0_v1_apply, Read.val_main_call0_v0_apply, Read.val_main_cst_3_apply, Read.val_main_v23_apply,
    Read.val_main_cst_4_apply, Read.val_main_call1_v1_apply, Read.val_main_call1_v0_apply, Read.val_main_cst_5_apply]
  rfl

/-- The reference's force stage is the specification's force array of the specification's feature array. -/
theorem v27_is_force (x0 : (⟨S8192x8192, .f32⟩ : BufTy).Contents (Elt Ideal)) (x1 : (⟨S8192x128, .f32⟩ : BufTy).Contents (Elt Ideal))
    (x2 : (⟨S8192x8192, .f32⟩ : BufTy).Contents (Elt Ideal)) (x3 : (⟨S64x128, .f32⟩ : BufTy).Contents (Elt Ideal))
    (x4 : (⟨S64, .f32⟩ : BufTy).Contents (Elt Ideal)) :
    Read.val_main_v27 (F := Ideal) x0 x1 x2 x3 x4
      = Cert.Force.forceArr (Cert.Force.featArr x0 x1 x3 (fun o => x4 (ix1 o))) x2 := by
  funext i
  obtain ⟨r, c, rfl⟩ : ∃ r c, i = ix2 r c := ⟨i 0, i 1, eq_ix2 i⟩
  rw [v27_at, v5_is_feat]
  rfl

end Cert.ReferenceIdeal.RefValue

end
-- ==== Proof.lean ====
/-
  Both programs compute, from a dense 8192×8192 matrix `A`, node inputs `X` (8192×128), pair weights `P`, a 64×128
  layer `W` and a bias `b`: the features `(A·X)·Wᵀ + b` and the forces `dist · P`, where the distance between two
  nodes' feature rows is the root of `max (|u|² + |v|² − 2⟨u, v⟩) 0` where that is positive and zero elsewhere.
  The kernel does it in two tiled passes — row blocks of `A`, the product with `X` accumulated over sixteen chunks of
  512 nodes; then 1024×1024 tiles of node pairs read from the features the first pass wrote —, the reference with whole
  matrix products. Read on the extended reals the two agree entry by entry: the chunked accumulation is one finite sum
  regrouped (addition there is associative and commutative, at the infinities too), every other operation is applied
  to the same operands in the same grouping with the same three literals, and a tile of the result is the
  whole-array function read at the tile's rows and columns. No step needs the inputs finite.
  The three frames: the two kernels' are the generated ones, the reference's is its run with the results dropped.
  The idealization rewrote nothing, so there is nothing to preserve.
-/
import proofs.«163462_j12197707120647_2_alg».proof.Defs
import proofs.«163462_j12197707120647_2_alg».proof.Proof.Gen.Kernel
import proofs.«163462_j12197707120647_2_alg».proof.Proof.Gen.Kernel.Skeleton
import proofs.«163462_j12197707120647_2_alg».proof.Proof.Gen.Kernel.Loops
import proofs.«163462_j12197707120647_2_alg».proof.Proof.Gen.Kernel.Launch
import proofs.«163462_j12197707120647_2_alg».proof.Proof.Gen.Kernel.Points
import proofs.«163462_j12197707120647_2_alg».proof.Proof.Gen.Kernel.Frame
import proofs.«163462_j12197707120647_2_alg».proof.Proof.Gen.KernelIdeal
import proofs.«163462_j12197707120647_2_alg».proof.Proof.Gen.KernelIdeal.Skeleton
import proofs.«163462_j12197707120647_2_alg».proof.Proof.Gen.KernelIdeal.Loops
import proofs.«163462_j12197707120647_2_alg».proof.Proof.Gen.KernelIdeal.Launch
import proofs.«163462_j12197707120647_2_alg».proof.Proof.Gen.KernelIdeal.Points
import proofs.«163462_j12197707120647_2_alg».proof.Proof.Gen.KernelIdeal.Frame
import proofs.«163462_j12197707120647_2_alg».proof.Proof.Gen.ReferenceIdeal
import proofs.«163462_j12197707120647_2_alg».proof.Proof.Gen.ReferenceIdeal.Run
import proofs.«163462_j12197707120647_2_alg».proof.Proof.Gen.ReferenceIdeal.Read
import proofs.«163462_j12197707120647_2_alg».proof.Proof.Gen.Pre_finite_inputs
import proofs.«163462_j12197707120647_2_alg».proof.Proof.KernelValue
import proofs.«163462_j12197707120647_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals the kernel's two result arrays and the reference's are the same functions of the arguments:
    the forces of the features, and the features. -/
theorem algebraic : Cert.algebraic_KernelIdeal_ReferenceIdeal := by
  intro m ρ m' ρ' _ hagree
  refine ⟨fun c => Cert.Force.forceArr (Cert.KernelIdeal.Values.feats m c) (m ((c.tc : Thread Cert.KernelIdeal.nD Cert.KernelIdeal.τ).loc Cert.KernelIdeal.main_arg2)),
    fun c => Cert.KernelIdeal.Values.feats m c, ?_, ?_⟩
  · exact (θ_run Cert.KernelIdeal.defs _ _).mono
      (fun _ h c => ⟨(h c).1.trans (Cert.KernelIdeal.Values.force_value m ρ c),
        (h c).2.1.trans (Cert.KernelIdeal.Values.feat_value m ρ c), (h c).2.2⟩)
      (Cert.KernelIdeal.Values.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v27_eq, Cert.ReferenceIdeal.RefValue.v27_is_force,
        (hagree c).1, (hagree c).2.1, (hagree c).2.2.1, (hagree c).2.2.2.1, (hagree c).2.2.2.2]
    · rw [Cert.ReferenceIdeal.Read.val_main_v5_eq, Cert.ReferenceIdeal.RefValue.v5_is_feat,
        (hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
